-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S256x272 : Shape := ⟨2, ![256, 272]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S256x272 : S_.BroadcastsInDim S256x272 (![] : Fin 0 → Fin S256x272.rank)
  reducesTo_S256x272_S_d0_1 : S256x272.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x16 .f32) (main_arg3 : FVec F S256x272 .f32) (main_arg4 : FVec F S256 .f32) (main_arg5 : FVec F S128x256 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S256x272 .f32 := Host.absf main_arg3
  let main_cst_2 : FVec F S_ .f32 := constant S_ .f32 0x7F800000#32
  let main_v10 : FVec F S256x272 .f32 := broadcastInDim S256x272 ![] bcast_S_S256x272 main_cst_2
  let main_v11 : IVec S256x272 1 := cmpf .olt main_v9 main_v10
  let main_c_3 : IVec S_ 1 := constantI S_ 1 1#1
  let main_v12 : IVec S_ 1 := (fun x v => Host.reduce IntOp.andi x v reducesTo_S256x272_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S256x272 : Shape := ⟨2, ![256, 272]⟩
abbrev S256 : Shape := ⟨1, ![256]⟩
abbrev S128x256 : Shape := ⟨2, ![128, 256]⟩
abbrev S128 : Shape := ⟨1, ![128]⟩
abbrev S800000x2 : Shape := ⟨2, ![800000, 2]⟩
abbrev S_ : Shape := ⟨0, ![]⟩
abbrev S800000x2x1 : Shape := ⟨3, ![800000, 2, 1]⟩
abbrev S800000x2x128 : Shape := ⟨3, ![800000, 2, 128]⟩
abbrev S800000x256 : Shape := ⟨2, ![800000, 256]⟩
abbrev S256x256 : Shape := ⟨2, ![256, 256]⟩
abbrev S256x16 : Shape := ⟨2, ![256, 16]⟩
abbrev S16x256 : Shape := ⟨2, ![16, 256]⟩
abbrev S256x128 : Shape := ⟨2, ![256, 128]⟩
abbrev S1x256 : Shape := ⟨2, ![1, 256]⟩
abbrev S1x128 : Shape := ⟨2, ![1, 128]⟩
abbrev S800000x128 : Shape := ⟨2, ![800000, 128]⟩
abbrev S6400x256 : Shape := ⟨2, ![6400, 256]⟩
abbrev S6400x16 : Shape := ⟨2, ![6400, 16]⟩
abbrev S6400x128 : Shape := ⟨2, ![6400, 128]⟩

abbrev nBuf : Space → Nat
  | .hbm => 27
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S256x272, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S800000x2, .i32⟩
  | .hbm, ⟨8, _⟩ => ⟨S50000x128, .bf16⟩
  | .hbm, ⟨9, _⟩ => ⟨S_, .i32⟩
  | .hbm, ⟨10, _⟩ => ⟨S800000x2, .i32⟩
  | .hbm, ⟨11, _⟩ => ⟨S800000x2, .i1⟩
  | .hbm, ⟨12, _⟩ => ⟨S_, .i32⟩
  | .hbm, ⟨13, _⟩ => ⟨S800000x2, .i32⟩
  | .hbm, ⟨14, _⟩ => ⟨S800000x2, .i32⟩
  | .hbm, ⟨15, _⟩ => ⟨S800000x2, .i32⟩
  | .hbm, ⟨16, _⟩ => ⟨S800000x2x1, .i32⟩
  | .hbm, ⟨17, _⟩ => ⟨S800000x2x128, .bf16⟩
  | .hbm, ⟨18, _⟩ => ⟨S800000x256, .bf16⟩
  | .hbm, ⟨19, _⟩ => ⟨S256x256, .f32⟩
  | .hbm, ⟨20, _⟩ => ⟨S256x256, .f32⟩
  | .hbm, ⟨21, _⟩ => ⟨S256x16, .f32⟩
  | .hbm, ⟨22, _⟩ => ⟨S16x256, .f32⟩
  | .hbm, ⟨23, _⟩ => ⟨S256x128, .f32⟩
  | .hbm, ⟨24, _⟩ => ⟨S1x256, .f32⟩
  | .hbm, ⟨25, _⟩ => ⟨S1x128, .f32⟩
  | .hbm, ⟨26, _⟩ => ⟨S800000x128, .f32⟩
  | .local _ .vmem, ⟨0, _⟩ => ⟨S6400x256, .bf16⟩
  | .local _ .vmem, ⟨1, _⟩ => ⟨S6400x256, .bf16⟩
  | .local _ .vmem, ⟨2, _⟩ => ⟨S6400x16, .f32⟩
  | .local _ .vmem, ⟨3, _⟩ => ⟨S6400x16, .f32⟩
  | .local _ .vmem, ⟨4, _⟩ => ⟨S256x256, .f32⟩
  | .local _ .vmem, ⟨5, _⟩ => ⟨S16x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S6400x128, .f32⟩
  | .local _ .vmem, ⟨10, _⟩ => ⟨S6400x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2x800000_S800000x2_1_0 : S2x800000.Transposes [1, 0] S800000x2
  bitsLt_bf16_f32 : FTy.bits .bf16 < FTy.bits .f32
  bcast_S_S800000x2 : S_.BroadcastsInDim S800000x2 (![] : Fin 0 → Fin S800000x2.rank)
  bcast_S800000x2_S800000x2x1_0_1 : S800000x2.BroadcastsInDim S800000x2x1 (![0, 1] : Fin 2 → Fin S800000x2x1.rank)
  shapeCasts_S800000x2x128_S800000x256 : S800000x2x128.ShapeCasts S800000x256
  slices_S256x272_S256x256_0_0 : S256x272.Slices ![0, 0] S256x256
  transposes_S256x256_S256x256_1_0 : S256x256.Transposes [1, 0] S256x256
  slices_S256x272_S256x16_0_256 : S256x272.Slices ![0, 256] S256x16
  transposes_S256x16_S16x256_1_0 : S256x16.Transposes [1, 0] S16x256
  transposes_S128x256_S256x128_1_0 : S128x256.Transposes [1, 0] S256x128
  shapeCasts_S256_S1x256 : S256.ShapeCasts S1x256
  shapeCasts_S128_S1x128 : S128.ShapeCasts S1x128
  inb_S6400x256_S6400x256_0_0 : ∀ a, (![0, 0] : Fin 2 → Nat) a + S6400x256.size a ≤ S6400x256.size a
  h_S6400x256 : 0 < S6400x256.numel
  shapeCasts_S6400x256_S6400x256 : S6400x256.ShapeCasts S6400x256
  inb_S6400x16_S6400x16_0_0 : ∀ a, (![0, 0] : Fin 2 → Nat) a + S6400x16.size a ≤ S6400x16.size a
  h_S6400x16 : 0 < S6400x16.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  gather_S50000x128_S800000x2x1_S800000x2x128_2_0_n_n_0_2_1128_wf : GatherDims.WF S50000x128 S800000x2x1 S800000x2x128 [2] [0] [] [0] [] 2 ![1, 128]
  dot_S6400x256_S256x256_S6400x256_1_0_0_1_n_n_wf : DotDims.WF S6400x256 S256x256 S6400x256 [1] [0] [0] [1] [] []
  dot_S6400x16_S16x256_S6400x256_1_0_0_1_n_n_wf : DotDims.WF S6400x16 S16x256 S6400x256 [1] [0] [0] [1] [] []
  dot_S6400x256_S256x128_S6400x128_1_0_0_1_n_n_wf : DotDims.WF S6400x256 S256x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S800000x256.size a
  hwx0_0 : ∀ i : grid0.Coords, EltTy.bits .bf16 = 32 ∨ (Rect.block (s := S800000x256) S6400x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x16.size a ≤ S800000x16.size a
  hwx0_1 : ∀ i : grid0.Coords, EltTy.bits .f32 = 32 ∨ (Rect.block (s := S800000x16) S6400x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x128.size a ≤ S800000x128.size a
  hwx0_7 : ∀ i : grid0.Coords, EltTy.bits .f32 = 32 ∨ (Rect.block (s := S800000x128) S6400x128.size (cc0_transform_7 i) (hinb0_7 i)).WholeWords (EltTy.packing .f32)

variable [Facts₀]

def gather_S50000x128_S800000x2x1_S800000x2x128_2_0_n_n_0_2_1128 : GatherDims S50000x128 S800000x2x1 S800000x2x128 where
  offsetDims := [2]
  collapsedSliceDims := [0]
  operandBatchingDims := []
  startIndicesBatchingDims := []
  startIndexMap := [0]
  indexVectorDim := 2
  sliceSizes := ![1, 128]
  wf := gather_S50000x128_S800000x2x1_S800000x2x128_2_0_n_n_0_2_1128_wf
def dot_S6400x256_S256x256_S6400x256_1_0_0_1_n_n : DotDims S6400x256 S256x256 S6400x256 where
  lhsContracting := [1]
  rhsContracting := [0]
  lhsNonContracting := [0]
  rhsNonContracting := [1]
  lhsBatch := []
  rhsBatch := []
  wf := dot_S6400x256_S256x256_S6400x256_1_0_0_1_n_n_wf
def dot_S6400x16_S16x256_S6400x256_1_0_0_1_n_n : DotDims S6400x16 S16x256 S6400x256 where
  lhsContracting := [1]
  rhsContracting := [0]
  lhsNonContracting := [0]
  rhsNonContracting := [1]
  lhsBatch := []
  rhsBatch := []
  wf := dot_S6400x16_S16x256_S6400x256_1_0_0_1_n_n_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf

abbrev win0_0 : Pipeline.Window sig grid0 :=
  Pipeline.Window.ofSpec (Memref.whole main_v9) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S6400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S256x272 : Shape := ⟨2, ![256, 272]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x272 : Shape := ⟨2, ![800000, 272]⟩
abbrev S272x256 : Shape := ⟨2, ![272, 256]⟩
abbrev S800000x256 : Shape := ⟨2, ![800000, 256]⟩
abbrev S1x256 : Shape := ⟨2, ![1, 256]⟩
abbrev S256x128 : Shape := ⟨2, ![256, 128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S256x272, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x272, .f32⟩
  | .hbm, ⟨30, _⟩ => ⟨S272x256, .f32⟩
  | .hbm, ⟨31, _⟩ => ⟨S800000x256, .f32⟩
  | .hbm, ⟨32, _⟩ => ⟨S1x256, .f32⟩
  | .hbm, ⟨33, _⟩ => ⟨S800000x256, .f32⟩
  | .hbm, ⟨34, _⟩ => ⟨S800000x256, .f32⟩
  | .hbm, ⟨35, _⟩ => ⟨S_, .f32⟩
  | .hbm, ⟨36, _⟩ => ⟨S800000x256, .f32⟩
  | .hbm, ⟨37, _⟩ => ⟨S800000x256, .f32⟩
  | .hbm, ⟨38, _⟩ => ⟨S256x128, .f32⟩
  | .hbm, ⟨39, _⟩ => ⟨S800000x128, .f32⟩
  | .hbm, ⟨40, _⟩ => ⟨S1x128, .f32⟩
  | .hbm, ⟨41, _⟩ => ⟨S800000x128, .f32⟩
  | .hbm, ⟨42, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  concatenates_S800000x128_S800000x128_S800000x16_S800000x272_d1 : Shape.Concatenates [S800000x128, S800000x128, S800000x16] S800000x272 1
  transposes_S256x272_S272x256_1_0 : S256x272.Transposes [1, 0] S272x256
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  transposes_S128x256_S256x128_1_0 : S128x256.Transposes [1, 0] S256x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  gather_S50000x128_S800000x1_S800000x128_1_0_n_n_0_1_1128_wf : GatherDims.WF S50000x128 S800000x1 S800000x128 [1] [0] [] [0] [] 1 ![1, 128]
  dot_S800000x272_S272x256_S800000x256_1_0_0_1_n_n_wf : DotDims.WF S800000x272 S272x256 S800000x256 [1] [0] [0] [1] [] []
  dot_S800000x256_S256x128_S800000x128_1_0_0_1_n_n_wf : DotDims.WF S800000x256 S256x128 S800000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x272_S272x256_S800000x256_1_0_0_1_n_n : DotDims S800000x272 S272x256 S800000x256 where
  lhsContracting := [1]
  rhsContracting := [0]
  lhsNonContracting := [0]
  rhsNonContracting := [1]
  lhsBatch := []
  rhsBatch := []
  wf := dot_S800000x272_S272x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf

class Facts : Prop extends Facts₀ where

variable [Facts]
-- ==== Proof.LibRowsByIndex.lean ====
/-
  Rows taken and rows added by an array of row numbers, read at an index.

  A gather that takes whole rows of an `N × C` matrix (or entries of an `N` vector) by an `E × 1` array of row
  numbers reads, at row `e`, the row whose number is entry `e` of the array, read as a signed integer and
  clamped into `[0, N − 1]`.  A scatter that adds the rows of an `E × C` matrix into an `N × C` matrix by
  such an array sends row `e` to the row whose number is entry `e`, read signed and NOT clamped: a row whose
  number is out of range is dropped.  So an update that lands on row `p` has a row number that is `p` as an
  integer, and in particular is not negative.

  At exact values the scatter-add is, at each entry, the entry plus the sum of the updates that land
  there.  A factor that is finite and not negative may be moved across that sum; this is what lets a per-row
  scale be applied either to every update that lands on the row or once to the row's sum.
-/
import Idealize.ShloMosaic.Lib.ValueIdx
import Idealize.ShloMosaic.PureOps.Ideal.Laws

noncomputable section

open scoped BigOperators

namespace Cert.RowsByIndex

open Idealize.ShloMosaic Idealize.ShloMosaic.ValueIdx

variable {α : Type}

/-- The row a start index names in a gather: the word read as a signed integer, clamped into `[0, N − 1]`. -/
def clampRow (N : ℕ) (hN : 0 < N) {w : ℕ} (b : BitVec w) : Fin N := ⟨min b.toInt.toNat (N - 1), by omega⟩

/-- A word whose signed reading is the row number `p` names row `p`. -/
theorem clampRow_of_toInt {N : ℕ} (hN : 0 < N) {w : ℕ} (b : BitVec w) (p : Fin N) (h : b.toInt = (p.val : ℤ)) :
    clampRow N hN b = p := by
  refine Fin.ext ?_
  show min b.toInt.toNat (N - 1) = p.val
  have := p.isLt
  rw [h]; simp only [Int.toNat_natCast]; omega

/-- A row number that is not negative is left alone by the wrap-around of negative row numbers
    (`select (x < 0) (x + N) x`). -/
theorem keep_nonneg (x y : BitVec 32) (h : 0 ≤ x.toInt) : Scalar.select (IntOp.cmpi .slt x 0#32) y x = x := by
  unfold Scalar.select IntOp.cmpi
  have hs : x.slt 0#32 = false := by
    rw [BitVec.slt_eq_decide]
    simpa using h
  simp [hs]

/-! ## Whole rows of a matrix taken by row numbers -/

/-- The dimension numbers of `x[idx]` for a matrix `x : [N, C]` and row numbers `idx : [E, 1]`. -/
abbrev rowsDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the rows taken is entry `c` of the row that entry `e` of the row numbers names. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e (0 : Fin 1)))) c) := by
  unfold Host.gather
  congr 1
  funext a
  refine Fin.ext ?_
  match a with
  | ⟨0, _⟩ =>
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show ¬ (1 : Fin 2) ∈ (rowsDims N E C wf).startIndexMap from (by decide : (1 : Fin 2) ∉ ([0] : List (Fin 2))))]
    rw [hs]
    unfold GatherDims.offCoord
    rw [dif_pos ((GatherDims.mem_sKept _ _).mpr ⟨(by decide : (1 : Fin 2) ∉ ([0] : List (Fin 2))), List.not_mem_nil⟩)]
    simp only [Nat.zero_add]
    rfl

/-! ## Entries of a vector taken by row numbers -/

/-- The dimension numbers of `x[idx]` for a vector `x : [N]` and row numbers `idx : [E, 1]`. -/
abbrev entriesDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the entries taken is the vector's entry that entry `e` of the row numbers names. -/
theorem gather_entries_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e (0 : Fin 1))))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N E wf).startIndexMap from List.mem_singleton.mpr rfl)]
  have hsi : (entriesDims N E wf).siIdx (ix1 e) ⟨List.idxOf (0 : Fin 1) (entriesDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows added into a matrix by row numbers -/

/-- The dimension numbers of `x.at[idx].add(u)` for `x : [N, C]`, row numbers `idx : [E, 1]`, rows `u : [E, C]`. -/
abbrev addRowsDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The window of update `(e, c)` starts, along the rows, at the signed reading of entry `e` of the row numbers. -/
theorem addRows_start {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) :
    (addRowsDims N E C wf).start (ix2 e c) idx 0 = (idx (ix2 e (0 : Fin 1))).toInt := by
  unfold ScatterDims.start
  rw [dif_pos (show (0 : Fin 2) ∈ (addRowsDims N E C wf).scatterDimsToOperandDims from List.mem_singleton.mpr rfl)]
  have hsi : (addRowsDims N E C wf).siIdx (ix2 e c) ⟨List.idxOf (0 : Fin 2) (addRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Along the rows an update has no window coordinate: the row axis is inserted. -/
theorem addRows_window {N E C : ℕ} (wf : ScatterDims.WF ⟨2, ![N, C]⟩ ⟨2, ![E, 1]⟩ ⟨2, ![E, C]⟩ [1] [0] [0] 1)
    (e : Fin E) (c : Fin C) : (addRowsDims N E C wf).window (ix2 e c) 0 = 0 := by
  unfold ScatterDims.window
  rw [dif_neg (show ¬ (0 : Fin 2) ∈ (addRowsDims N E C wf).sKept from
    (by decide : (0 : Fin 2) ∉ (List.finRange 2).filter (· ∉ ([0] : List (Fin 2)))))]

/-- An update that lands on row `i 0` has, as its row number read signed, exactly `i 0`. -/
theorem addRows_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e (0 : Fin 1))).toInt = ((i 0).val : ℤ) := by
  unfold ScatterDims.resultIdx? at h
  split at h
  · rename_i hall
    have h0 := hall 0
    have hv : ((addRowsDims N E C wf).start (ix2 e c) idx 0 + ((addRowsDims N E C wf).window (ix2 e c) 0 : ℤ)).toNat = (i 0).val :=
      congrArg Fin.val (congrFun (Option.some.inj h) 0)
    rw [addRows_start, addRows_window] at hv h0
    simp only [Nat.cast_zero, add_zero] at hv h0
    omega
  · exact absurd h (by simp)

/-! ## A finite, non-negative factor across a sum of extended reals -/

/-- A factor that is not negative and not `+∞` distributes over a finite sum of extended reals. -/
theorem sum_mul_of_nonneg_ne_top {ι : Type*} (s : Finset ι) (f : ι → EReal) {D : EReal} (h0 : 0 ≤ D) (ht : D ≠ ⊤) :
    (∑ j ∈ s, f j) * D = ∑ j ∈ s, f j * D := by
  classical
  induction s using Finset.induction_on with
  | empty => simp
  | insert a s ha ih =>
    rw [Finset.sum_insert ha, Finset.sum_insert ha, EReal.right_distrib_of_nonneg_of_ne_top h0 ht, ih]

/-- Scatter-adding into zero and then scaling an entry by a finite non-negative factor is scatter-adding, into
    zero, updates each of which carries that factor whenever it lands on the entry. -/
theorem scatterAdd_mul_right {s si su : Shape} {φ : FTy} (d : ScatterDims s si su) {w : ℕ} (idx : IVec si w)
    (u v : su.Idx → EReal) (z z' : s.Idx → EReal) (i : s.Idx) (hz : z i = 0) (hz' : z' i = 0)
    {D : EReal} (h0 : 0 ≤ D) (ht : D ≠ ⊤)
    (huv : ∀ j, d.resultIdx? j idx = some i → v j = u j * D) :
    Host.scatterAdd (F := Ideal) (φ := φ) d z idx u i * D = Host.scatterAdd (F := Ideal) (φ := φ) d z' idx v i := by
  show Ideal.hostScatterAdd d z idx u i * D = Ideal.hostScatterAdd d z' idx v i
  unfold Ideal.hostScatterAdd
  rw [hz, hz', zero_add, zero_add, sum_mul_of_nonneg_ne_top _ _ h0 ht]
  exact Finset.sum_congr rfl fun j hj => (huv j (Finset.mem_filter.mp hj).2).symm

/-- Scatter-adding, into equal entries, updates that agree wherever they land on the entry gives equal entries. -/
theorem scatterAdd_congr {s si su : Shape} {φ : FTy} (d : ScatterDims s si su) {w : ℕ} (idx : IVec si w)
    (u v : su.Idx → EReal) (z z' : s.Idx → EReal) (i : s.Idx) (hz : z i = z' i)
    (huv : ∀ j, d.resultIdx? j idx = some i → u j = v j) :
    Host.scatterAdd (F := Ideal) (φ := φ) d z idx u i = Host.scatterAdd (F := Ideal) (φ := φ) d z' idx v i := by
  show Ideal.hostScatterAdd d z idx u i = Ideal.hostScatterAdd d z' idx v i
  unfold Ideal.hostScatterAdd
  rw [hz]
  exact congrArg _ (Finset.sum_congr rfl fun j hj => huv j (Finset.mem_filter.mp hj).2)

/-! ## The inverse square root of a degree, guarded at zero, is finite and not negative -/

/-- `where(x > 0, rsqrt x, 0)` is a non-negative real, whatever extended real `x` is. -/
theorem guarded_rsqrt_finite (x z z' : EReal) (hz : z = 0) (hz' : z' = 0) :
    0 ≤ Scalar.select (Ideal.cmp .ogt x z) (Ideal.rsqrt x) z'
      ∧ Scalar.select (Ideal.cmp .ogt x z) (Ideal.rsqrt x) z' ≠ ⊤ := by
  subst hz hz'
  unfold Scalar.select Ideal.cmp
  by_cases hx : (0 : EReal) < x
  · simp only [hx, decide_true, BitVec.ofBool_true, if_true]
    induction x using EReal.rec with
    | bot => exact absurd hx (by simp)
    | top =>
      rw [show Ideal.rsqrt (⊤ : EReal) = 0 from rfl]
      exact ⟨le_refl _, EReal.zero_ne_top⟩
    | coe r =>
      have hr : 0 < r := by exact_mod_cast hx
      rw [show Ideal.rsqrt (r : EReal) = if r < 0 then ⊥ else if r = 0 then ⊤ else (((Real.sqrt r)⁻¹ : ℝ) : EReal) from rfl,
        if_neg (not_lt.mpr hr.le), if_neg hr.ne']
      exact ⟨by exact_mod_cast inv_nonneg.mpr (Real.sqrt_nonneg r), EReal.coe_ne_top _⟩
  · simp only [hx, decide_false, BitVec.ofBool_false]
    simp

end Cert.RowsByIndex

end
-- ==== Proof.LibRowPairs.lean ====
/-
  Rows of an `N × C` matrix taken by an `E × A` array of row numbers (given, as a gather wants it, with a trailing
  unit axis: `E × A × 1`), read at an index: entry `(e, a, c)` of the `E × A × C` result is entry `c` of the row
  whose number is entry `(e, a)` of the array, read as a signed integer and clamped into `[0, N − 1]`.
  And the merge of the two trailing axes of an `E × A × C` array into one of extent `A · C`: entry `(e, k)` of
  the merged array is entry `(e, k / C, k % C)` of the array (the merged extent given as a number `K` with `K = A · C`,
  so that a literal such as 256 needs no rewriting).
-/
import Idealize.ShloMosaic.Lib.ValueIdx
import Idealize.ShloMosaic.Lib.Pipeline.Value
import proofs.«125666_j51196010168704_2_alg».proof.Proof.LibRowsByIndex

noncomputable section

namespace Cert.RowPairs

open Idealize.ShloMosaic Idealize.ShloMosaic.ValueIdx Cert.RowsByIndex

variable {α : Type}

/-- The dimension numbers of `x[idx]` for a matrix `x : [N, C]` and row numbers `idx : [E, A]` (as `[E, A, 1]`). -/
abbrev rowsDims (N E A C : ℕ)
    (wf : GatherDims.WF ⟨2, ![N, C]⟩ ⟨3, ![E, A, 1]⟩ ⟨3, ![E, A, C]⟩ [2] [0] [] [0] [] 2 ![1, C]) :
    GatherDims ⟨2, ![N, C]⟩ ⟨3, ![E, A, 1]⟩ ⟨3, ![E, A, C]⟩ where
  offsetDims := [2]
  collapsedSliceDims := [0]
  operandBatchingDims := []
  startIndicesBatchingDims := []
  startIndexMap := [0]
  indexVectorDim := 2
  sliceSizes := ![1, C]
  wf := wf

/-- Entry `(e, a, c)` of the rows taken is entry `c` of the row that entry `(e, a)` of the row numbers names. -/
theorem gather_rows_apply {N E A C w : ℕ} (hN : 0 < N)
    (wf : GatherDims.WF ⟨2, ![N, C]⟩ ⟨3, ![E, A, 1]⟩ ⟨3, ![E, A, C]⟩ [2] [0] [] [0] [] 2 ![1, C])
    (x : (⟨2, ![N, C]⟩ : Shape).Idx → α) (idx : IVec ⟨3, ![E, A, 1]⟩ w) (e : Fin E) (a : Fin A) (c : Fin C) :
    Host.gather (rowsDims N E A C wf) x idx (ix3 e a c)
      = x (ix2 (clampRow N hN (idx (ix3 e a (0 : Fin 1)))) c) := by
  unfold Host.gather
  congr 1
  funext ax
  refine Fin.ext ?_
  match ax with
  | ⟨0, _⟩ =>
    show (rowsDims N E A C wf).start (ix3 e a c) idx 0 + (rowsDims N E A C wf).batchCoord (ix3 e a c) 0
      + (rowsDims N E A C wf).offCoord (ix3 e a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E A C wf).startIndexMap from List.mem_singleton.mpr rfl)]
    have hsi : (rowsDims N E A C wf).siIdx (ix3 e a c) ⟨List.idxOf (0 : Fin 2) (rowsDims N E A C wf).startIndexMap,
        List.idxOf_lt_length_iff.2 (List.mem_singleton.mpr rfl)⟩ = ix3 e a (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N E A C wf).start (ix3 e a c) idx 1 + (rowsDims N E A C wf).batchCoord (ix3 e a c) 1
      + (rowsDims N E A C wf).offCoord (ix3 e a c) 1 = c.val
    rw [GatherDims.batchCoord_eq_zero _ _ _ List.not_mem_nil]
    have hs : (rowsDims N E A C wf).start (ix3 e a c) idx 1 = 0 := by
      unfold GatherDims.start
      rw [dif_neg (show ¬ (1 : Fin 2) ∈ (rowsDims N E A C wf).startIndexMap from
        (by decide : (1 : Fin 2) ∉ ([0] : List (Fin 2))))]
    rw [hs]
    unfold GatherDims.offCoord
    rw [dif_pos ((GatherDims.mem_sKept _ _).mpr ⟨(by decide : (1 : Fin 2) ∉ ([0] : List (Fin 2))), List.not_mem_nil⟩)]
    simp only [Nat.zero_add]
    rfl

/-- Entry `(e, k)` of an `E × A × C` array with its two trailing axes merged is entry `(e, k / C, k % C)`. -/
theorem merge_trailing_apply {E A C K : ℕ} (hC : 0 < C) (hK : K = A * C)
    (h : (⟨3, ![E, A, C]⟩ : Shape).ShapeCasts ⟨2, ![E, K]⟩) (x : (⟨3, ![E, A, C]⟩ : Shape).Idx → α)
    (e : Fin E) (k : Fin K) :
    shapeCast ⟨2, ![E, K]⟩ x h (ix2 e k)
      = x (ix3 e ⟨k.val / C, (Nat.div_lt_iff_lt_mul hC).mpr (hK ▸ k.isLt)⟩ ⟨k.val % C, Nat.mod_lt _ hC⟩) := by
  refine shapeCast_apply x h (ix2 e k) _ ?_
  rw [Shape.rowMajor_val_three, Shape.rowMajor_val_two]
  subst hK
  show (e.val * A + k.val / C) * C + k.val % C = e.val * (A * C) + k.val
  have := Nat.div_add_mod k.val C
  rw [Nat.add_mul, Nat.mul_assoc, Nat.add_assoc]
  congr 1
  rw [Nat.mul_comm (k.val / C) C]
  exact this

end Cert.RowPairs

end
-- ==== Proof.LibVecRow.lean ====
/-
  A vector of `b` entries stored as a `1 × b` row (a reshape that adds a leading unit axis) read at an entry:
  entry `(u, q)` of the row is entry `q` of the vector.
-/
import Idealize.ShloMosaic.Lib.Pipeline.Value
import Idealize.ShloMosaic.Lib.ValueIdx

noncomputable section

namespace Cert.VecRow

open Idealize.ShloMosaic Idealize.ShloMosaic.ValueIdx

/-- A `[b]` vector reshaped to a `[1, b]` row reads, at `(u, q)`, the vector at `q`: both have row-major position `q`. -/
theorem row_of_vec_apply {α : Type} {b : ℕ} (h : (⟨1, ![b]⟩ : Shape).ShapeCasts ⟨2, ![1, b]⟩) (x : (⟨1, ![b]⟩ : Shape).Idx → α)
    (u : Fin 1) (q : Fin b) : shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have := u.isLt
  have hu : u.val = 0 := by omega
  rw [hu]; omega

end Cert.VecRow

end
-- ==== Proof.Spec.lean ====
/-
  The edge network both programs compute, as one function of the argument arrays, over the extended reals.

  For each edge `e` the features of its two end nodes are set side by side (256 numbers: entry `k` is entry
  `k % 128` of the node on side `k / 128`), followed by the edge's own 16 attributes. A first layer sends these
  272 numbers to 256 hidden units (weights `W1`, bias `b1`, then the positive part), a second layer sends the
  hidden units to 128 outputs (weights `W2`, bias `b2`).

  The first layer's sum over the 272 features is written here as the sum over the 256 node features plus the
  sum over the 16 attributes; `sum_split` says that this is the one sum over all 272, by the monoid laws of
  addition alone (no finiteness is needed).
-/
import Idealize.ShloMosaic.Lib.ValueIdx
import Idealize.ShloMosaic.PureOps.Ideal.Laws
import proofs.«125666_j51196010168704_2_alg».proof.Proof.LibRowsByIndex

noncomputable section

open scoped BigOperators

namespace Cert.EdgeMlp

open Idealize.ShloMosaic Idealize.ShloMosaic.ValueIdx Cert.RowsByIndex

/-- A node number as both programs prepare it for the gather: a negative number is moved up by the number of
    nodes, 50000, once. -/
def wrapNeg (v : BitVec 32) : BitVec 32 := Scalar.select (IntOp.cmpi .slt v 0#32) (IntOp.addi v 50000#32) v

/-- The node at end `a` of edge `e`: its prepared number read signed and clamped into `[0, 49999]`. -/
def node (ei : IVec ⟨2, ![2, 800000]⟩ 32) (a : Fin 2) (e : Fin 800000) : Fin 50000 :=
  clampRow 50000 (by decide) (wrapNeg (ei (ix2 a e)))

/-- Entry `k` of the two end nodes' features set side by side. -/
def ends (x : FVec Ideal ⟨2, ![50000, 128]⟩ .f32) (ei : IVec ⟨2, ![2, 800000]⟩ 32) (e : Fin 800000) (k : Fin 256) : EReal :=
  x (ix2 (node ei ⟨k.val / 128, by have := k.isLt; omega⟩ e) ⟨k.val % 128, Nat.mod_lt _ (by decide)⟩)

/-- Hidden unit `h` of edge `e` before the positive part. -/
def pre (x : FVec Ideal ⟨2, ![50000, 128]⟩ .f32) (ei : IVec ⟨2, ![2, 800000]⟩ 32) (ea : FVec Ideal ⟨2, ![800000, 16]⟩ .f32)
    (W1 : FVec Ideal ⟨2, ![256, 272]⟩ .f32) (b1 : FVec Ideal ⟨1, ![256]⟩ .f32) (e : Fin 800000) (h : Fin 256) : EReal :=
  ((∑ k : Fin 256, ends x ei e k * W1 (ix2 h (⟨k.val, by have := k.isLt; omega⟩ : Fin 272)))
    + (∑ j : Fin 16, ea (ix2 e j) * W1 (ix2 h (⟨256 + j.val, by have := j.isLt; omega⟩ : Fin 272)))) + b1 (ix1 h)

/-- Hidden unit `h` of edge `e`: the positive part. -/
def hid (x : FVec Ideal ⟨2, ![50000, 128]⟩ .f32) (ei : IVec ⟨2, ![2, 800000]⟩ 32) (ea : FVec Ideal ⟨2, ![800000, 16]⟩ .f32)
    (W1 : FVec Ideal ⟨2, ![256, 272]⟩ .f32) (b1 : FVec Ideal ⟨1, ![256]⟩ .f32) (e : Fin 800000) (h : Fin 256) : EReal :=
  max (pre x ei ea W1 b1 e h) (Ideal.ofBits .f32 0x00000000#32)

/-- Output `o` of edge `e`. -/
def outAt (x : FVec Ideal ⟨2, ![50000, 128]⟩ .f32) (ei : IVec ⟨2, ![2, 800000]⟩ 32) (ea : FVec Ideal ⟨2, ![800000, 16]⟩ .f32)
    (W1 : FVec Ideal ⟨2, ![256, 272]⟩ .f32) (b1 : FVec Ideal ⟨1, ![256]⟩ .f32)
    (W2 : FVec Ideal ⟨2, ![128, 256]⟩ .f32) (b2 : FVec Ideal ⟨1, ![128]⟩ .f32) (e : Fin 800000) (o : Fin 128) : EReal :=
  (∑ h : Fin 256, hid x ei ea W1 b1 e h * W2 (ix2 o h)) + b2 (ix1 o)

/-- The result array. -/
def G (x : FVec Ideal ⟨2, ![50000, 128]⟩ .f32) (ei : IVec ⟨2, ![2, 800000]⟩ 32) (ea : FVec Ideal ⟨2, ![800000, 16]⟩ .f32)
    (W1 : FVec Ideal ⟨2, ![256, 272]⟩ .f32) (b1 : FVec Ideal ⟨1, ![256]⟩ .f32)
    (W2 : FVec Ideal ⟨2, ![128, 256]⟩ .f32) (b2 : FVec Ideal ⟨1, ![128]⟩ .f32) : FVec Ideal ⟨2, ![800000, 128]⟩ .f32 :=
  fun i => outAt x ei ea W1 b1 W2 b2 ⟨(i 0).val, idx2_lt0 i⟩ ⟨(i 1).val, idx2_lt1 i⟩

theorem G_apply (x : FVec Ideal ⟨2, ![50000, 128]⟩ .f32) (ei : IVec ⟨2, ![2, 800000]⟩ 32) (ea : FVec Ideal ⟨2, ![800000, 16]⟩ .f32)
    (W1 : FVec Ideal ⟨2, ![256, 272]⟩ .f32) (b1 : FVec Ideal ⟨1, ![256]⟩ .f32)
    (W2 : FVec Ideal ⟨2, ![128, 256]⟩ .f32) (b2 : FVec Ideal ⟨1, ![128]⟩ .f32) (e : Fin 800000) (o : Fin 128) :
    G x ei ea W1 b1 W2 b2 (ix2 e o) = outAt x ei ea W1 b1 W2 b2 e o := rfl

/-- A sum over 272 terms is the sum of its first 256 terms plus the sum of its last 16. -/
theorem sum_split {M : Type*} [AddCommMonoid M] (f : Fin 272 → M) :
    ∑ k : Fin 272, f k
      = (∑ k : Fin 256, f ⟨k.val, by have := k.isLt; omega⟩) + ∑ j : Fin 16, f ⟨256 + j.val, by have := j.isLt; omega⟩ :=
  Fin.sum_univ_add (a := 256) (b := 16) f

end Cert.EdgeMlp

end
-- ==== Proof.Entry.lean ====
/-
  The arrays the kernel's region is launched on, read at an index, in terms of the program's arguments.

  Before the launch the program prepares: the two end nodes' feature rows of every edge, gathered from the node
  table (rounded to a narrower float format first, which changes nothing at the exact values) and laid side by
  side as 256 numbers per edge; the first 256 columns and the last 16 columns of `W1`, each transposed; `W2`
  transposed; and the two biases as one-row matrices.
-/
import proofs.«125666_j51196010168704_2_alg».proof.Proof.Gen.KernelIdeal.Frame
import Idealize.ShloMosaic.Lib.StableHlo.Run
import Idealize.ShloMosaic.PureOps.Ideal
import proofs.«125666_j51196010168704_2_alg».proof.Proof.LibRowPairs
import proofs.«125666_j51196010168704_2_alg».proof.Proof.LibVecRow
import proofs.«125666_j51196010168704_2_alg».proof.Proof.Spec

noncomputable section

namespace Cert.EdgeMlp.Entry

open Cert.KernelIdeal Cert.KernelIdeal.Gen Idealize.ShloMosaic Idealize.ShloMosaic.TcCoe Idealize.SL.Sem
open Idealize.ShloMosaic.StableHlo Idealize.ShloMosaic.ValueIdx Cert.RowsByIndex Cert.EdgeMlp

variable (m : (ℓ : Loc nD τ sig) → Buf (Elt Ideal) ℓ)

/-! ## The arrays as terms of the arguments -/

theorem xe_term (c : Dev nD) : (V m c main_v9 : S800000x256.Idx → EReal)
    = shapeCast S800000x256
        (Host.gather gather_S50000x128_S800000x2x1_S800000x2x128_2_0_n_n_0_2_1128
          (truncf (F := Ideal) .bf16 (m ((c : Thread nD τ).loc main_arg0)) bitsLt_bf16_f32)
          (broadcastInDim S800000x2x1 ![0, 1] bcast_S800000x2_S800000x2x1_0_1
            (select
              (cmpi .slt (transpose S800000x2 [1, 0] (m ((c : Thread nD τ).loc main_arg1)) transposes_S2x800000_S800000x2_1_0)
                (broadcastInDim S800000x2 ![] bcast_S_S800000x2 (constantI S_ 32 0#32)))
              (addi (transpose S800000x2 [1, 0] (m ((c : Thread nD τ).loc main_arg1)) transposes_S2x800000_S800000x2_1_0)
                (broadcastInDim S800000x2 ![] bcast_S_S800000x2 (constantI S_ 32 50000#32)))
              (transpose S800000x2 [1, 0] (m ((c : Thread nD τ).loc main_arg1)) transposes_S2x800000_S800000x2_1_0))))
        shapeCasts_S800000x2x128_S800000x256 := by
  dsimp only [Gen.V, Gen.hostOps0]
  after_results
  rfl

theorem w1ab_term (c : Dev nD) : (V m c main_v11 : S256x256.Idx → EReal)
    = transpose S256x256 [1, 0]
        (extractStridedSlice S256x256 ![0, 0] (m ((c : Thread nD τ).loc main_arg3)) slices_S256x272_S256x256_0_0)
        transposes_S256x256_S256x256_1_0 := by
  dsimp only [Gen.V, Gen.hostOps0]
  after_results

theorem w1c_term (c : Dev nD) : (V m c main_v13 : S16x256.Idx → EReal)
    = transpose S16x256 [1, 0]
        (extractStridedSlice S256x16 ![0, 256] (m ((c : Thread nD τ).loc main_arg3)) slices_S256x272_S256x16_0_256)
        transposes_S256x16_S16x256_1_0 := by
  dsimp only [Gen.V, Gen.hostOps0]
  after_results

theorem w2t_term (c : Dev nD) : (V m c main_v14 : S256x128.Idx → EReal)
    = transpose S256x128 [1, 0] (m ((c : Thread nD τ).loc main_arg5)) transposes_S128x256_S256x128_1_0 := by
  dsimp only [Gen.V, Gen.hostOps0]
  after_results

theorem b1row_term (c : Dev nD) : (V m c main_v15 : S1x256.Idx → EReal)
    = shapeCast S1x256 (m ((c : Thread nD τ).loc main_arg4)) shapeCasts_S256_S1x256 := by
  dsimp only [Gen.V, Gen.hostOps0]
  after_results
  rfl

theorem b2row_term (c : Dev nD) : (V m c main_v16 : S1x128.Idx → EReal)
    = shapeCast S1x128 (m ((c : Thread nD τ).loc main_arg6)) shapeCasts_S128_S1x128 := by
  dsimp only [Gen.V, Gen.hostOps0]
  after_results
  rfl

/-! ## The arrays read at an index -/

/-- A transposed index pair. -/
theorem prepared_index (x1 : IVec S2x800000 32) (e : Fin 800000) (a : Fin 2) :
    (broadcastInDim S800000x2x1 ![0, 1] bcast_S800000x2_S800000x2x1_0_1
      (select
        (cmpi .slt (transpose S800000x2 [1, 0] x1 transposes_S2x800000_S800000x2_1_0)
          (broadcastInDim S800000x2 ![] bcast_S_S800000x2 (constantI S_ 32 0#32)))
        (addi (transpose S800000x2 [1, 0] x1 transposes_S2x800000_S800000x2_1_0)
          (broadcastInDim S800000x2 ![] bcast_S_S800000x2 (constantI S_ 32 50000#32)))
        (transpose S800000x2 [1, 0] x1 transposes_S2x800000_S800000x2_1_0))) (ix3 e a (0 : Fin 1))
      = wrapNeg (x1 (ix2 a e)) := by
  have ht : transpose S800000x2 [1, 0] x1 transposes_S2x800000_S800000x2_1_0 (ix2 e a) = x1 (ix2 a e) :=
    transpose_apply [1, 0] x1 transposes_S2x800000_S800000x2_1_0 (ix2 e a) (ix2 a e) (fun b => match b with
      | ⟨0, _⟩ => rfl
      | ⟨1, _⟩ => rfl)
  refine (broadcastInDim_apply _ bcast_S800000x2_S800000x2x1_0_1 _ (ix3 e a (0 : Fin 1)) (ix2 e a) (fun b => match b with
      | ⟨0, _⟩ => by show e.val = if (800000 : Nat) = 1 then 0 else e.val; rw [if_neg (by decide)]
      | ⟨1, _⟩ => by show a.val = if (2 : Nat) = 1 then 0 else a.val; rw [if_neg (by decide)])).trans ?_
  show Scalar.select (IntOp.cmpi .slt (transpose S800000x2 [1, 0] x1 transposes_S2x800000_S800000x2_1_0 (ix2 e a)) 0#32)
      (IntOp.addi (transpose S800000x2 [1, 0] x1 transposes_S2x800000_S800000x2_1_0 (ix2 e a)) 50000#32)
      (transpose S800000x2 [1, 0] x1 transposes_S2x800000_S800000x2_1_0 (ix2 e a)) = _
  rw [ht]
  rfl

/-- Window 0's array: entry `(e, k)` is entry `k` of edge `e`'s two end nodes' features side by side. -/
theorem xe_apply (c : Dev nD) (e : Fin 800000) (k : Fin 256) :
    (V m c main_v9 : S800000x256.Idx → EReal) (ix2 e k) = ends (m ((c : Thread nD τ).loc main_arg0)) (m ((c : Thread nD τ).loc main_arg1)) e k := by
  rw [xe_term]
  refine (Cert.RowPairs.merge_trailing_apply (E := 800000) (A := 2) (C := 128) (K := 256) (by decide) (by decide)
    shapeCasts_S800000x2x128_S800000x256 _ e k).trans ?_
  refine (Cert.RowPairs.gather_rows_apply (N := 50000) (E := 800000) (A := 2) (C := 128) (by decide)
    gather_S50000x128_S800000x2x1_S800000x2x128_2_0_n_n_0_2_1128.wf _ _ e _ _).trans ?_
  rw [prepared_index]
  rfl

/-- Window 2's array: the first 256 columns of `W1`, transposed. -/
theorem w1ab_apply (c : Dev nD) (k : Fin 256) (h : Fin 256) :
    (V m c main_v11 : S256x256.Idx → EReal) (ix2 k h)
      = ((m ((c : Thread nD τ).loc main_arg3)) : S256x272.Idx → EReal) (ix2 h (⟨k.val, by have := k.isLt; omega⟩ : Fin 272)) := by
  rw [w1ab_term]
  refine (transpose_apply [1, 0] _ transposes_S256x256_S256x256_1_0 (ix2 k h) (ix2 h k) (fun b => match b with
      | ⟨0, _⟩ => rfl
      | ⟨1, _⟩ => rfl)).trans ?_
  exact extractStridedSlice_apply (s := S256x272) (t := S256x256) ![0, 0] ((m ((c : Thread nD τ).loc main_arg3)) : S256x272.Idx → EReal)
    slices_S256x272_S256x256_0_0 (ix2 h k) (ix2 h (⟨k.val, by have := k.isLt; omega⟩ : Fin 272)) (fun a => match a with
      | ⟨0, _⟩ => by show h.val = 0 + h.val; omega
      | ⟨1, _⟩ => by show k.val = 0 + k.val; omega)

/-- Window 3's array: the last 16 columns of `W1`, transposed. -/
theorem w1c_apply (c : Dev nD) (j : Fin 16) (h : Fin 256) :
    (V m c main_v13 : S16x256.Idx → EReal) (ix2 j h)
      = ((m ((c : Thread nD τ).loc main_arg3)) : S256x272.Idx → EReal) (ix2 h (⟨256 + j.val, by have := j.isLt; omega⟩ : Fin 272)) := by
  rw [w1c_term]
  refine (transpose_apply [1, 0] _ transposes_S256x16_S16x256_1_0 (ix2 j h) (ix2 h j) (fun b => match b with
      | ⟨0, _⟩ => rfl
      | ⟨1, _⟩ => rfl)).trans ?_
  exact extractStridedSlice_apply (s := S256x272) (t := S256x16) ![0, 256] ((m ((c : Thread nD τ).loc main_arg3)) : S256x272.Idx → EReal)
    slices_S256x272_S256x16_0_256 (ix2 h j) (ix2 h (⟨256 + j.val, by have := j.isLt; omega⟩ : Fin 272)) (fun a => match a with
      | ⟨0, _⟩ => by show h.val = 0 + h.val; omega
      | ⟨1, _⟩ => by show 256 + j.val = 256 + j.val; rfl)

/-- Window 5's array: `W2` transposed. -/
theorem w2t_apply (c : Dev nD) (h : Fin 256) (o : Fin 128) :
    (V m c main_v14 : S256x128.Idx → EReal) (ix2 h o) = ((m ((c : Thread nD τ).loc main_arg5)) : S128x256.Idx → EReal) (ix2 o h) := by
  rw [w2t_term]
  exact transpose_apply [1, 0] _ transposes_S128x256_S256x128_1_0 (ix2 h o) (ix2 o h) (fun b => match b with
      | ⟨0, _⟩ => rfl
      | ⟨1, _⟩ => rfl)

/-- Window 4's array: `b1` as a row. -/
theorem b1row_apply (c : Dev nD) (u : Fin 1) (h : Fin 256) :
    (V m c main_v15 : S1x256.Idx → EReal) (ix2 u h) = ((m ((c : Thread nD τ).loc main_arg4)) : S256.Idx → EReal) (ix1 h) := by
  rw [b1row_term]
  exact Cert.VecRow.row_of_vec_apply shapeCasts_S256_S1x256 _ u h

/-- Window 6's array: `b2` as a row. -/
theorem b2row_apply (c : Dev nD) (u : Fin 1) (o : Fin 128) :
    (V m c main_v16 : S1x128.Idx → EReal) (ix2 u o) = ((m ((c : Thread nD τ).loc main_arg6)) : S128.Idx → EReal) (ix1 o) := by
  rw [b2row_term]
  exact Cert.VecRow.row_of_vec_apply shapeCasts_S128_S1x128 _ u o

end Cert.EdgeMlp.Entry

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.LibRowBroadcast.lean ====
/-
  A `1 × b` row spread over the rows of an `a × b` matrix read at an entry: entry `(p, q)` of the spread matrix is
  entry `(0, q)` of the row.
-/
import Idealize.ShloMosaic.Lib.Pipeline.Value
import Idealize.ShloMosaic.Lib.ValueIdx

noncomputable section

namespace Cert.RowBroadcast

open Idealize.ShloMosaic Idealize.ShloMosaic.ValueIdx

/-- A `[1, b]` row broadcast to `[a, b]` reads, at `(p, q)`, the row at `q`: the unit axis is read at 0, the other
    axis at its own coordinate. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.RowBroadcast

end
-- ==== Proof.Body.lean ====
/-
  What the kernel's body stores, read at an entry: for row `r` of a block of 6400 edges and output `o`,

    (∑ h, max (((∑ k, xe (r, k) · w1ab (k, h)) + (∑ j, ea (r, j) · w1c (j, h))) + b1 (0, h)) 0 · w2 (h, o)) + b2 (0, o)

  of the blocks it loads: the three matrix products into zero accumulators are plain sums, a change of float
  format is the identity, the two bias rows are spread over the rows of the block.
-/
import proofs.«125666_j51196010168704_2_alg».proof.Proof.Gen.KernelIdeal.Skeleton
import proofs.«125666_j51196010168704_2_alg».proof.Proof.LibMatmul
import proofs.«125666_j51196010168704_2_alg».proof.Proof.LibRowBroadcast

noncomputable section

open scoped BigOperators

namespace Cert.EdgeMlp.Body

open Cert.KernelIdeal Cert.KernelIdeal.Gen Idealize.ShloMosaic Idealize.ShloMosaic.ValueIdx

/-! The index facts of the body's product number 1: rows of the left operand come from the result's rows, its columns from
    the contraction position; rows of the right operand from the contraction position, its columns from the result's columns. -/
theorem d1_l0 (i : S6400x256.Idx) (q : dot_S6400x256_S256x256_S6400x256_1_0_0_1_n_n.contr.Idx) : (dot_S6400x256_S256x256_S6400x256_1_0_0_1_n_n.lhsIdx i q 0).val = (i 0).val := by
  unfold DotDims.lhsIdx
  rw [dif_neg (show ¬(0 : Fin S6400x256.rank) ∈ dot_S6400x256_S256x256_S6400x256_1_0_0_1_n_n.lhsBatch by decide), dif_pos (show (0 : Fin S6400x256.rank) ∈ dot_S6400x256_S256x256_S6400x256_1_0_0_1_n_n.lhsNonContracting by decide)]
  rfl
theorem d1_l1 (i : S6400x256.Idx) (q : dot_S6400x256_S256x256_S6400x256_1_0_0_1_n_n.contr.Idx) : (dot_S6400x256_S256x256_S6400x256_1_0_0_1_n_n.lhsIdx i q 1).val = (q ⟨0, by decide⟩).val :=
  dot_S6400x256_S256x256_S6400x256_1_0_0_1_n_n.lhsIdx_val_of_single rfl i q
theorem d1_r0 (i : S6400x256.Idx) (q : dot_S6400x256_S256x256_S6400x256_1_0_0_1_n_n.contr.Idx) : (dot_S6400x256_S256x256_S6400x256_1_0_0_1_n_n.rhsIdx i q 0).val = (q ⟨0, by decide⟩).val :=
  dot_S6400x256_S256x256_S6400x256_1_0_0_1_n_n.rhsIdx_val_of_single rfl i q
theorem d1_r1 (i : S6400x256.Idx) (q : dot_S6400x256_S256x256_S6400x256_1_0_0_1_n_n.contr.Idx) : (dot_S6400x256_S256x256_S6400x256_1_0_0_1_n_n.rhsIdx i q 1).val = (i 1).val := by
  unfold DotDims.rhsIdx
  rw [dif_neg (show ¬(1 : Fin S256x256.rank) ∈ dot_S6400x256_S256x256_S6400x256_1_0_0_1_n_n.rhsBatch by decide), dif_pos (show (1 : Fin S256x256.rank) ∈ dot_S6400x256_S256x256_S6400x256_1_0_0_1_n_n.rhsNonContracting by decide)]
  rfl

/-! The index facts of the body's product number 2: rows of the left operand come from the result's rows, its columns from
    the contraction position; rows of the right operand from the contraction position, its columns from the result's columns. -/
theorem d2_l0 (i : S6400x256.Idx) (q : dot_S6400x16_S16x256_S6400x256_1_0_0_1_n_n.contr.Idx) : (dot_S6400x16_S16x256_S6400x256_1_0_0_1_n_n.lhsIdx i q 0).val = (i 0).val := by
  unfold DotDims.lhsIdx
  rw [dif_neg (show ¬(0 : Fin S6400x16.rank) ∈ dot_S6400x16_S16x256_S6400x256_1_0_0_1_n_n.lhsBatch by decide), dif_pos (show (0 : Fin S6400x16.rank) ∈ dot_S6400x16_S16x256_S6400x256_1_0_0_1_n_n.lhsNonContracting by decide)]
  rfl
theorem d2_l1 (i : S6400x256.Idx) (q : dot_S6400x16_S16x256_S6400x256_1_0_0_1_n_n.contr.Idx) : (dot_S6400x16_S16x256_S6400x256_1_0_0_1_n_n.lhsIdx i q 1).val = (q ⟨0, by decide⟩).val :=
  dot_S6400x16_S16x256_S6400x256_1_0_0_1_n_n.lhsIdx_val_of_single rfl i q
theorem d2_r0 (i : S6400x256.Idx) (q : dot_S6400x16_S16x256_S6400x256_1_0_0_1_n_n.contr.Idx) : (dot_S6400x16_S16x256_S6400x256_1_0_0_1_n_n.rhsIdx i q 0).val = (q ⟨0, by decide⟩).val :=
  dot_S6400x16_S16x256_S6400x256_1_0_0_1_n_n.rhsIdx_val_of_single rfl i q
theorem d2_r1 (i : S6400x256.Idx) (q : dot_S6400x16_S16x256_S6400x256_1_0_0_1_n_n.contr.Idx) : (dot_S6400x16_S16x256_S6400x256_1_0_0_1_n_n.rhsIdx i q 1).val = (i 1).val := by
  unfold DotDims.rhsIdx
  rw [dif_neg (show ¬(1 : Fin S16x256.rank) ∈ dot_S6400x16_S16x256_S6400x256_1_0_0_1_n_n.rhsBatch by decide), dif_pos (show (1 : Fin S16x256.rank) ∈ dot_S6400x16_S16x256_S6400x256_1_0_0_1_n_n.rhsNonContracting by decide)]
  rfl

/-! The index facts of the body's product number 3: rows of the left operand come from the result's rows, its columns from
    the contraction position; rows of the right operand from the contraction position, its columns from the result's columns. -/
theorem d3_l0 (i : S6400x128.Idx) (q : dot_S6400x256_S256x128_S6400x128_1_0_0_1_n_n.contr.Idx) : (dot_S6400x256_S256x128_S6400x128_1_0_0_1_n_n.lhsIdx i q 0).val = (i 0).val := by
  unfold DotDims.lhsIdx
  rw [dif_neg (show ¬(0 : Fin S6400x256.rank) ∈ dot_S6400x256_S256x128_S6400x128_1_0_0_1_n_n.lhsBatch by decide), dif_pos (show (0 : Fin S6400x256.rank) ∈ dot_S6400x256_S256x128_S6400x128_1_0_0_1_n_n.lhsNonContracting by decide)]
  rfl
theorem d3_l1 (i : S6400x128.Idx) (q : dot_S6400x256_S256x128_S6400x128_1_0_0_1_n_n.contr.Idx) : (dot_S6400x256_S256x128_S6400x128_1_0_0_1_n_n.lhsIdx i q 1).val = (q ⟨0, by decide⟩).val :=
  dot_S6400x256_S256x128_S6400x128_1_0_0_1_n_n.lhsIdx_val_of_single rfl i q
theorem d3_r0 (i : S6400x128.Idx) (q : dot_S6400x256_S256x128_S6400x128_1_0_0_1_n_n.contr.Idx) : (dot_S6400x256_S256x128_S6400x128_1_0_0_1_n_n.rhsIdx i q 0).val = (q ⟨0, by decide⟩).val :=
  dot_S6400x256_S256x128_S6400x128_1_0_0_1_n_n.rhsIdx_val_of_single rfl i q
theorem d3_r1 (i : S6400x128.Idx) (q : dot_S6400x256_S256x128_S6400x128_1_0_0_1_n_n.contr.Idx) : (dot_S6400x256_S256x128_S6400x128_1_0_0_1_n_n.rhsIdx i q 1).val = (i 1).val := by
  unfold DotDims.rhsIdx
  rw [dif_neg (show ¬(1 : Fin S256x128.rank) ∈ dot_S6400x256_S256x128_S6400x128_1_0_0_1_n_n.rhsBatch by decide), dif_pos (show (1 : Fin S256x128.rank) ∈ dot_S6400x256_S256x128_S6400x128_1_0_0_1_n_n.rhsNonContracting by decide)]
  rfl

/-- At the exact values a change of float format is the identity, on whole arrays. -/
theorem truncf_self {s : Shape} {φ ψ : FTy} (a : FVec Ideal s φ) (h : ψ.bits < φ.bits) :
    (truncf ψ a h : FVec Ideal s ψ) = a := rfl

/-- The stored value at entry `(r, o)` of the block. -/
theorem pay_apply (v0 : Vec Ideal S6400x256 .bf16) (v2 : Vec Ideal S6400x16 .f32) (v4 : Vec Ideal S256x256 .f32)
    (v7 : Vec Ideal S16x256 .f32) (v13 : Vec Ideal S1x256 .f32) (v20 : Vec Ideal S256x128 .f32) (v24 : Vec Ideal S1x128 .f32)
    (r : Fin 6400) (o : Fin 128) :
    k0_pay1 (F := Ideal) v0 v2 v4 v7 v13 v20 v24 (ix2 r o)
      = (∑ h : Fin 256,
          max (((∑ k : Fin 256, v0 (ix2 r k) * v4 (ix2 k h)) + (∑ j : Fin 16, v2 (ix2 r j) * v7 (ix2 j h)))
                + v13 (ix2 (0 : Fin 1) h)) (Ideal.ofBits .f32 0x00000000#32) * v20 (ix2 h o))
        + v24 (ix2 (0 : Fin 1) o) := by
  unfold k0_pay1
  simp only [shapeCast_self, truncf_self]
  rw [addf_apply]
  refine congrArg₂ (· + ·) ?_ (Cert.RowBroadcast.broadcastTo_1b_ab_apply v24 broadcasts_S1x128_S6400x128 r o)
  refine (Cert.PlainDot.matmul_zero_apply (φ₁ := .bf16) (φ₂ := .bf16) dot_S6400x256_S256x128_S6400x128_1_0_0_1_n_n none rfl rfl
    d3_l0 d3_l1 d3_r0 d3_r1 _ v20 r o).trans ?_
  refine Finset.sum_congr rfl fun h _ => ?_
  refine congrArg (· * v20 (ix2 h o)) ?_
  rw [maximumf_apply, addf_apply, addf_apply]
  refine congrArg₂ max ?_ rfl
  exact congrArg₂ (· + ·)
    (congrArg₂ (· + ·)
      (Cert.PlainDot.matmul_zero_apply (φ₁ := .bf16) (φ₂ := .bf16) dot_S6400x256_S256x256_S6400x256_1_0_0_1_n_n none rfl rfl
        d1_l0 d1_l1 d1_r0 d1_r1 v0 v4 r h)
      (Cert.PlainDot.matmul_zero_apply (φ₁ := .bf16) (φ₂ := .bf16) dot_S6400x16_S16x256_S6400x256_1_0_0_1_n_n none rfl rfl
        d2_l0 d2_l1 d2_r0 d2_r1 v2 v7 r h))
    (Cert.RowBroadcast.broadcastTo_1b_ab_apply v13 broadcasts_S1x256_S6400x256 r h)

end Cert.EdgeMlp.Body

end
-- ==== Proof.BlockEntry.lean ====
/-
  One entry of what the kernel's body stores, when the blocks it loads are read off the prepared arrays:
  entry `(r, o)` of the block of edge `e` is output `o` of edge `e` of the network.
-/
import proofs.«125666_j51196010168704_2_alg».proof.Proof.Body
import proofs.«125666_j51196010168704_2_alg».proof.Proof.Spec

noncomputable section

open scoped BigOperators

namespace Cert.EdgeMlp.Body

open Cert.KernelIdeal Cert.KernelIdeal.Gen Idealize.ShloMosaic Idealize.ShloMosaic.ValueIdx Cert.EdgeMlp

/-- If row `r` of the two row blocks holds edge `e`'s end-node features and attributes, and the weight and bias
    blocks hold the prepared weights and biases, the stored entry `(r, o)` is output `o` of edge `e`. -/
theorem block_entry
    (x0 : FVec Ideal ⟨2, ![50000, 128]⟩ .f32) (x1 : IVec ⟨2, ![2, 800000]⟩ 32) (x2 : FVec Ideal ⟨2, ![800000, 16]⟩ .f32)
    (x3 : FVec Ideal ⟨2, ![256, 272]⟩ .f32) (x4 : FVec Ideal ⟨1, ![256]⟩ .f32)
    (x5 : FVec Ideal ⟨2, ![128, 256]⟩ .f32) (x6 : FVec Ideal ⟨1, ![128]⟩ .f32)
    (b0 : Vec Ideal S6400x256 .bf16) (b1 : Vec Ideal S6400x16 .f32) (b2 : Vec Ideal S256x256 .f32)
    (b3 : Vec Ideal S16x256 .f32) (b4 : Vec Ideal S1x256 .f32) (b5 : Vec Ideal S256x128 .f32) (b6 : Vec Ideal S1x128 .f32)
    (r : Fin 6400) (o : Fin 128) (e : Fin 800000)
    (h0 : ∀ k : Fin 256, b0 (ix2 r k) = ends x0 x1 e k)
    (h1 : ∀ j : Fin 16, b1 (ix2 r j) = x2 (ix2 e j))
    (h2 : ∀ k h : Fin 256, b2 (ix2 k h) = x3 (ix2 h (⟨k.val, by have := k.isLt; omega⟩ : Fin 272)))
    (h3 : ∀ (j : Fin 16) (h : Fin 256), b3 (ix2 j h) = x3 (ix2 h (⟨256 + j.val, by have := j.isLt; omega⟩ : Fin 272)))
    (h4 : ∀ h : Fin 256, b4 (ix2 (0 : Fin 1) h) = x4 (ix1 h))
    (h5 : ∀ (h : Fin 256) (o : Fin 128), b5 (ix2 h o) = x5 (ix2 o h))
    (h6 : ∀ o : Fin 128, b6 (ix2 (0 : Fin 1) o) = x6 (ix1 o)) :
    k0_pay1 (F := Ideal) b0 b1 b2 b3 b4 b5 b6 (ix2 r o) = outAt x0 x1 x2 x3 x4 x5 x6 e o := by
  rw [pay_apply]
  unfold outAt hid pre
  simp only [h0, h1, h2, h3, h4, h5, h6]

end Cert.EdgeMlp.Body

end
-- ==== Proof.Blocks.lean ====
/-
  From blocks to the whole result array.

  The launch has 125 points; point `t` works on the block of edges `6400·t … 6400·t + 6399`: it reads those rows
  of the prepared end-node features and of the edge attributes, the whole of the prepared weights and biases,
  and writes back those rows of the result. So what point `t` writes back is block `t` of the network's result
  `G` of the program's arguments, the 125 blocks cover the array, and the array ends holding `G`.
-/
import proofs.«125666_j51196010168704_2_alg».proof.Proof.Gen.KernelIdeal.Value
import proofs.«125666_j51196010168704_2_alg».proof.Proof.Entry
import proofs.«125666_j51196010168704_2_alg».proof.Proof.BlockEntry

noncomputable section

namespace Cert.EdgeMlp.Blocks

open Cert.KernelIdeal Cert.KernelIdeal.Gen Idealize.ShloMosaic Idealize.ShloMosaic.TcCoe Idealize.SL.Sem
open Idealize.ShloMosaic.Pipeline (Dat)
open Idealize.ShloMosaic.ValueIdx Cert.EdgeMlp Cert.EdgeMlp.Entry Cert.EdgeMlp.Body

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 125 points: the two row windows and the result window sit at block
    `(t, 0)`, the weight and bias windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input window's block at a point, read off its array -/

theorem iblk0_apply (c : Dev nD) (t : Fin cfg0.N) (r : Fin 6400) (k : Fin 256) (e : Fin 800000)
    (he : e.val = t.val * 6400 + r.val) :
    (iblk m c 0 t : Vec Ideal S6400x256 .bf16) (ix2 r k) = (V m c main_v9 : S800000x256.Idx → EReal) (ix2 e k) := by
  obtain ⟨e0, e1, -⟩ := idx_facts t
  unfold iblk
  rw [View.read_apply]
  show (V m c main_v9 : S800000x256.Idx → EReal) _ = V m c main_v9 _
  refine congrArg (V m c main_v9 : S800000x256.Idx → EReal) ?_
  funext a
  apply Fin.ext
  match a with
  | ⟨0, _⟩ => show win0_0.index t (0 : Fin 2) * 6400 + 1 * r.val = e.val; rw [e0, he]; omega
  | ⟨1, _⟩ => show win0_0.index t (1 : Fin 2) * 256 + 1 * k.val = k.val; rw [e1]; omega

theorem iblk1_apply (c : Dev nD) (t : Fin cfg0.N) (r : Fin 6400) (k : Fin 16) (e : Fin 800000)
    (he : e.val = t.val * 6400 + r.val) :
    (iblk m c 1 t : Vec Ideal S6400x16 .f32) (ix2 r k) = (V m c main_arg2 : S800000x16.Idx → EReal) (ix2 e k) := by
  obtain ⟨-, -, e0, e1, -, -, -, -, -, -, -, -, -, -, -, -⟩ := idx_facts t
  unfold iblk
  rw [View.read_apply]
  show (V m c main_arg2 : S800000x16.Idx → EReal) _ = V m c main_arg2 _
  refine congrArg (V m c main_arg2 : S800000x16.Idx → EReal) ?_
  funext a
  apply Fin.ext
  match a with
  | ⟨0, _⟩ => show win0_1.index t (0 : Fin 2) * 6400 + 1 * r.val = e.val; rw [e0, he]; omega
  | ⟨1, _⟩ => show win0_1.index t (1 : Fin 2) * 16 + 1 * k.val = k.val; rw [e1]; omega

theorem iblk2_apply (c : Dev nD) (t : Fin cfg0.N) (r : Fin 256) (k : Fin 256) :
    (iblk m c 2 t : Vec Ideal S256x256 .f32) (ix2 r k) = (V m c main_v11 : S256x256.Idx → EReal) (ix2 r k) := by
  obtain ⟨-, -, -, -, e0, e1, -, -, -, -, -, -, -, -, -, -⟩ := idx_facts t
  unfold iblk
  rw [View.read_apply]
  show (V m c main_v11 : S256x256.Idx → EReal) _ = V m c main_v11 _
  refine congrArg (V m c main_v11 : S256x256.Idx → EReal) ?_
  funext a
  apply Fin.ext
  match a with
  | ⟨0, _⟩ => show win0_2.index t (0 : Fin 2) * 256 + 1 * r.val = r.val; rw [e0]; omega
  | ⟨1, _⟩ => show win0_2.index t (1 : Fin 2) * 256 + 1 * k.val = k.val; rw [e1]; omega

theorem iblk3_apply (c : Dev nD) (t : Fin cfg0.N) (r : Fin 16) (k : Fin 256) :
    (iblk m c 3 t : Vec Ideal S16x256 .f32) (ix2 r k) = (V m c main_v13 : S16x256.Idx → EReal) (ix2 r k) := by
  obtain ⟨-, -, -, -, -, -, e0, e1, -, -, -, -, -, -, -, -⟩ := idx_facts t
  unfold iblk
  rw [View.read_apply]
  show (V m c main_v13 : S16x256.Idx → EReal) _ = V m c main_v13 _
  refine congrArg (V m c main_v13 : S16x256.Idx → EReal) ?_
  funext a
  apply Fin.ext
  match a with
  | ⟨0, _⟩ => show win0_3.index t (0 : Fin 2) * 16 + 1 * r.val = r.val; rw [e0]; omega
  | ⟨1, _⟩ => show win0_3.index t (1 : Fin 2) * 256 + 1 * k.val = k.val; rw [e1]; omega

theorem iblk4_apply (c : Dev nD) (t : Fin cfg0.N) (r : Fin 1) (k : Fin 256) :
    (iblk m c 4 t : Vec Ideal S1x256 .f32) (ix2 r k) = (V m c main_v15 : S1x256.Idx → EReal) (ix2 r k) := by
  obtain ⟨-, -, -, -, -, -, -, -, e0, e1, -, -, -, -, -, -⟩ := idx_facts t
  unfold iblk
  rw [View.read_apply]
  show (V m c main_v15 : S1x256.Idx → EReal) _ = V m c main_v15 _
  refine congrArg (V m c main_v15 : S1x256.Idx → EReal) ?_
  funext a
  apply Fin.ext
  match a with
  | ⟨0, _⟩ => show win0_4.index t (0 : Fin 2) * 1 + 1 * r.val = r.val; rw [e0]; omega
  | ⟨1, _⟩ => show win0_4.index t (1 : Fin 2) * 256 + 1 * k.val = k.val; rw [e1]; omega

theorem iblk5_apply (c : Dev nD) (t : Fin cfg0.N) (r : Fin 256) (k : Fin 128) :
    (iblk m c 5 t : Vec Ideal S256x128 .f32) (ix2 r k) = (V m c main_v14 : S256x128.Idx → EReal) (ix2 r k) := by
  obtain ⟨-, -, -, -, -, -, -, -, -, -, e0, e1, -, -, -, -⟩ := idx_facts t
  unfold iblk
  rw [View.read_apply]
  show (V m c main_v14 : S256x128.Idx → EReal) _ = V m c main_v14 _
  refine congrArg (V m c main_v14 : S256x128.Idx → EReal) ?_
  funext a
  apply Fin.ext
  match a with
  | ⟨0, _⟩ => show win0_5.index t (0 : Fin 2) * 256 + 1 * r.val = r.val; rw [e0]; omega
  | ⟨1, _⟩ => show win0_5.index t (1 : Fin 2) * 128 + 1 * k.val = k.val; rw [e1]; omega

theorem iblk6_apply (c : Dev nD) (t : Fin cfg0.N) (r : Fin 1) (k : Fin 128) :
    (iblk m c 6 t : Vec Ideal S1x128 .f32) (ix2 r k) = (V m c main_v16 : S1x128.Idx → EReal) (ix2 r k) := by
  obtain ⟨-, -, -, -, -, -, -, -, -, -, -, -, e0, e1, -, -⟩ := idx_facts t
  unfold iblk
  rw [View.read_apply]
  show (V m c main_v16 : S1x128.Idx → EReal) _ = V m c main_v16 _
  refine congrArg (V m c main_v16 : S1x128.Idx → EReal) ?_
  funext a
  apply Fin.ext
  match a with
  | ⟨0, _⟩ => show win0_6.index t (0 : Fin 2) * 1 + 1 * r.val = r.val; rw [e0]; omega
  | ⟨1, _⟩ => show win0_6.index t (1 : Fin 2) * 128 + 1 * k.val = k.val; rw [e1]; omega

/-! ## What a point writes back, the cover, the run -/

/-- The row of the arrays that row `r` of point `t`'s block is. -/
abbrev edgeOf (t : Fin cfg0.N) (r : Fin 6400) : Fin 800000 :=
  ⟨t.val * 6400 + r.val, by have := t.isLt; have hN : cfg0.N = 125 := N_0; have := r.isLt; omega⟩

/-- WHAT POINT `t` WRITES BACK is block `t` of the network's result of the program's arguments. -/
theorem flushed_eq (c : Dev nD) (t : Fin cfg0.N) :
    (dats m 0 c).flushed 7 t = ((cfg0.win 7).blk t).view.read (Elt Ideal)
      (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed7]
  unfold out0_7
  rw [View.canon_unit_zero hz]
  simp only [View.ld_unit_zero (S := S6400x256) hz, View.ld_unit_zero (S := S6400x16) hz, View.ld_unit_zero (S := S256x256) hz,
    View.ld_unit_zero (S := S16x256) hz, View.ld_unit_zero (S := S1x256) hz, View.ld_unit_zero (S := S256x128) hz,
    View.ld_unit_zero (S := S1x128) hz]
  funext j
  obtain ⟨r, o, rfl⟩ : ∃ (r : Fin 6400) (o : Fin 128), j = (ix2 r o : S6400x128.Idx) := ⟨j 0, j 1, eq_ix2 (n0 := 6400) (n1 := 128) j⟩
  obtain ⟨-, -, -, -, -, -, -, -, -, -, -, -, -, -, e14, e15⟩ := idx_facts t
  have hemb : ((cfg0.win 7).blk t).view.emb (ix2 r o : S6400x128.Idx) = (ix2 (edgeOf t r) o : S800000x128.Idx) := by
    funext a
    apply Fin.ext
    match a with
    | ⟨0, _⟩ => show win0_7.index t (0 : Fin 2) * 6400 + 1 * r.val = t.val * 6400 + r.val; rw [e14]; omega
    | ⟨1, _⟩ => show win0_7.index t (1 : Fin 2) * 128 + 1 * o.val = o.val; rw [e15]; omega
  show k0_pay1 (F := Ideal) (iblk m c 0 t) (iblk m c 1 t) (iblk m c 2 t) (iblk m c 3 t) (iblk m c 4 t) (iblk m c 5 t) (iblk m c 6 t) (ix2 r o)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 r o : S6400x128.Idx))
  rw [hemb, G_apply]
  exact block_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) (iblk m c 6 t) r o (edgeOf t r)
    (fun k => (iblk0_apply m c t r k (edgeOf t r) rfl).trans (xe_apply m c (edgeOf t r) k))
    (fun j => (iblk1_apply m c t r j (edgeOf t r) rfl).trans (congrFun (V_main_arg2 m c) (ix2 (edgeOf t r) j)))
    (fun k h => (iblk2_apply m c t k h).trans (w1ab_apply m c k h))
    (fun j h => (iblk3_apply m c t j h).trans (w1c_apply m c j h))
    (fun h => (iblk4_apply m c t (0 : Fin 1) h).trans (b1row_apply m c (0 : Fin 1) h))
    (fun h o => (iblk5_apply m c t h o).trans (w2t_apply m c h o))
    (fun o => (iblk6_apply m c t (0 : Fin 1) o).trans (b2row_apply m c (0 : Fin 1) o))

/-- An index of the result array is in point `t`'s block iff each coordinate is in the block's range on its axis. -/
theorem mem_blk (t : Fin cfg0.N) (i : S800000x128.Idx) :
    i ∈ ((cfg0.win 7).blk t).view.set ↔ ∀ a : Fin 2, win0_7.index t a * S6400x128.size a ≤ (i a).val ∧ (i a).val < win0_7.index t a * S6400x128.size a + S6400x128.size a := by
  show i ∈ ((View.whole main_v17).slice (win0_7.rect t)).set ↔ _
  rw [View.set_slice_whole, Rect.mem_set_unit]
  exact Iff.rfl

/-- Every row of the result is in the block of the point whose number is the row divided by 6400. -/
theorem cover (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  have hN : cfg0.N = 125 := N_0
  let t : Fin cfg0.N := ⟨(i 0).val / 6400, by rw [hN]; omega⟩
  obtain ⟨-, -, -, -, -, -, -, -, -, -, -, -, -, -, e14, e15⟩ := idx_facts t
  have ht : t.val = (i 0).val / 6400 := rfl
  refine ⟨t, flush0_7 t, ?_⟩
  rw [mem_blk]
  intro a
  match a with
  | ⟨0, _⟩ => show win0_7.index t (0 : Fin 2) * 6400 ≤ (i 0).val ∧ (i 0).val < win0_7.index t (0 : Fin 2) * 6400 + 6400; rw [e14, ht]; omega
  | ⟨1, _⟩ => show win0_7.index t (1 : Fin 2) * 128 ≤ (i 1).val ∧ (i 1).val < win0_7.index t (1 : Fin 2) * 128 + 128; rw [e15]; omega

/-- THE RESULT ARRAY after the run is the network's result of the program's arguments. -/
theorem final (c : Dev nD) : (dats m 0 c).arrAt 7 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (fun t _ => flushed_eq m c t) cover

/-- The kernel's run: the result array at the network's result, the arguments unchanged. -/
theorem run : θ_run defs (onTc (τ := τ) (main (F := Ideal))) ⟨m, fun _ => 0, ρ⟩ fun r => ∀ c : Dev nD,
      r.2.mem ((c : Thread nD τ).loc main_v17) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.EdgeMlp.Blocks

end
-- ==== Proof.RefSide.lean ====
/-
  The reference computes the network's result `G`.

  The reference gathers each end's node features with its own gather, joins the two 128-wide pieces and the 16
  edge attributes into 272 features per edge, and multiplies by `W1` transposed in one product over all 272
  features; the network's first layer is written as the sum over the 256 node features plus the sum over the 16
  attributes, and the two agree by splitting the one sum (`sum_split`). The rest (bias, positive part, second
  product, bias) is the same on both sides, entry by entry.
-/
import proofs.«125666_j51196010168704_2_alg».proof.Proof.Gen.ReferenceIdeal.Read
import proofs.«125666_j51196010168704_2_alg».proof.Proof.LibRowsByIndex
import proofs.«125666_j51196010168704_2_alg».proof.Proof.Spec

noncomputable section

open scoped BigOperators

namespace Cert.EdgeMlp.Ref

open Cert.ReferenceIdeal Cert.ReferenceIdeal.Gen Cert.ReferenceIdeal.Read Idealize.ShloMosaic Idealize.ShloMosaic.ValueIdx
open Cert.RowsByIndex Cert.EdgeMlp

/-- Entry `k` of the end nodes' features set side by side is entry `c` of the node at end `a`, for
    `a = k / 128` and `c = k % 128`. -/
theorem ends_eq (x0 : FVec Ideal S50000x128 .f32) (x1 : IVec S2x800000 32) (e : Fin 800000) (k : Fin 256)
    (a : Fin 2) (c : Fin 128) (ha : a.val = k.val / 128) (hc : c.val = k.val % 128) :
    x0 (ix2 (clampRow 50000 (by decide) (wrapNeg (x1 (ix2 a e)))) c) = ends x0 x1 e k := by
  have hlt : k.val / 128 < 2 := (Nat.div_lt_iff_lt_mul (by decide)).mpr (show k.val < 2 * 128 from k.isLt)
  have ea : a = ⟨k.val / 128, hlt⟩ := Fin.ext ha
  have ec : c = ⟨k.val % 128, Nat.mod_lt _ (by decide)⟩ := Fin.ext hc
  subst ea ec
  rfl

/-- The row numbers the first gather is given: end 0's node numbers, prepared. -/
theorem rows0 (x1 : IVec S2x800000 32) (e : Fin 800000) :
    val_main_v7 (F := Ideal) x1 (ix2 e (0 : Fin 1)) = wrapNeg (x1 (ix2 (0 : Fin 2) e)) := by
  have hi : idx_main_v0 (idx_main_v1 (idx_main_v7 (ix2 e (0 : Fin 1)))) = ix2 (0 : Fin 2) e :=
    funext fun a => Fin.ext (by
      match a with
      | ⟨0, _⟩ => rfl
      | ⟨1, _⟩ => show e.val % 800000 = e.val; exact Nat.mod_eq_of_lt e.isLt)
  rw [val_main_v7_apply, val_main_v6_apply, val_main_v3_apply, val_main_v5_apply, val_main_v1_apply, val_main_v0_apply,
    val_main_v2_apply, val_main_v4_apply, val_main_c_apply, val_main_c_0_apply, hi]
  rfl

/-- The row numbers the second gather is given: end 1's node numbers, prepared. -/
theorem rows1 (x1 : IVec S2x800000 32) (e : Fin 800000) :
    val_main_v16 (F := Ideal) x1 (ix2 e (0 : Fin 1)) = wrapNeg (x1 (ix2 (1 : Fin 2) e)) := by
  have hi : idx_main_v9 (idx_main_v10 (idx_main_v16 (ix2 e (0 : Fin 1)))) = ix2 (1 : Fin 2) e :=
    funext fun a => Fin.ext (by
      match a with
      | ⟨0, _⟩ => rfl
      | ⟨1, _⟩ => show e.val % 800000 = e.val; exact Nat.mod_eq_of_lt e.isLt)
  rw [val_main_v16_apply, val_main_v15_apply, val_main_v12_apply, val_main_v14_apply, val_main_v10_apply, val_main_v9_apply,
    val_main_v11_apply, val_main_v13_apply, val_main_c_1_apply, val_main_c_2_apply, hi]
  rfl

/-- The joined features of edge `e` at a node position `k < 256`: the first piece (end 0's features) for
    `k < 128`, the second (end 1's) at `k − 128` otherwise. -/
theorem joined_node (x0 : FVec Ideal S50000x128 .f32) (x1 : IVec S2x800000 32) (x2 : FVec Ideal S800000x16 .f32) (e : Fin 800000) (k : Fin 256) :
    val_main_v18 (F := Ideal) x0 x1 x2 (ix2 e (⟨k.val, by have := k.isLt; omega⟩ : Fin 272)) = ends x0 x1 e k := by
  have hk256 : k.val < 256 := k.isLt
  unfold val_main_v18
  by_cases hk : k.val < 128
  · refine (concatenate_apply_piece (1 : Fin S800000x272.rank)
      ([⟨S800000x128, val_main_v8 (F := Ideal) x0 x1⟩, ⟨S800000x128, val_main_v17 (F := Ideal) x0 x1⟩, ⟨S800000x16, x2⟩] : List ((s : Shape) × (s.Idx → EReal)))
      concatenates_S800000x128_S800000x128_S800000x16_S800000x272_d1
      (ix2 e (⟨k.val, by omega⟩ : Fin 272)) 0 (by show (0 : ℕ) < 3; decide) S800000x128 (val_main_v8 (F := Ideal) x0 x1) rfl rfl 0 rfl
      (ix2 e (⟨k.val, hk⟩ : Fin 128)) (fun b hb => ?_) ?_).trans ?_
    · match b with
      | ⟨0, _⟩ => rfl
      | ⟨1, _⟩ => exact absurd rfl hb
    · show 0 + k.val = k.val; omega
    · unfold val_main_v8
      refine (gather_rows_apply (N := 50000) (E := 800000) (C := 128) (by decide) gather_S50000x128_S800000x1_S800000x128_1_0_n_n_0_1_1128.wf x0
        (val_main_v7 (F := Ideal) x1) e (⟨k.val, hk⟩ : Fin 128)).trans ?_
      rw [rows0]
      exact ends_eq x0 x1 e k 0 ⟨k.val, hk⟩ (by show 0 = k.val / 128; omega) (by show k.val = k.val % 128; omega)
  · refine (concatenate_apply_piece (1 : Fin S800000x272.rank)
      ([⟨S800000x128, val_main_v8 (F := Ideal) x0 x1⟩, ⟨S800000x128, val_main_v17 (F := Ideal) x0 x1⟩, ⟨S800000x16, x2⟩] : List ((s : Shape) × (s.Idx → EReal)))
      concatenates_S800000x128_S800000x128_S800000x16_S800000x272_d1
      (ix2 e (⟨k.val, by omega⟩ : Fin 272)) 1 (by show (1 : ℕ) < 3; decide) S800000x128 (val_main_v17 (F := Ideal) x0 x1) rfl rfl 128 rfl
      (ix2 e (⟨k.val - 128, by omega⟩ : Fin 128)) (fun b hb => ?_) ?_).trans ?_
    · match b with
      | ⟨0, _⟩ => rfl
      | ⟨1, _⟩ => exact absurd rfl hb
    · show 128 + (k.val - 128) = k.val; omega
    · unfold val_main_v17
      refine (gather_rows_apply (N := 50000) (E := 800000) (C := 128) (by decide) gather_S50000x128_S800000x1_S800000x128_1_0_n_n_0_1_1128.wf x0
        (val_main_v16 (F := Ideal) x1) e (⟨k.val - 128, by omega⟩ : Fin 128)).trans ?_
      rw [rows1]
      exact ends_eq x0 x1 e k 1 ⟨k.val - 128, by omega⟩ (by show 1 = k.val / 128; omega) (by show k.val - 128 = k.val % 128; omega)

/-- The joined features of edge `e` at an attribute position `256 + j`: the third piece, the edge's attributes. -/
theorem joined_attr (x0 : FVec Ideal S50000x128 .f32) (x1 : IVec S2x800000 32) (x2 : FVec Ideal S800000x16 .f32) (e : Fin 800000) (j : Fin 16) :
    val_main_v18 (F := Ideal) x0 x1 x2 (ix2 e (⟨256 + j.val, by have := j.isLt; omega⟩ : Fin 272)) = x2 (ix2 e j) := by
  unfold val_main_v18
  refine concatenate_apply_piece (1 : Fin S800000x272.rank)
      ([⟨S800000x128, val_main_v8 (F := Ideal) x0 x1⟩, ⟨S800000x128, val_main_v17 (F := Ideal) x0 x1⟩, ⟨S800000x16, x2⟩] : List ((s : Shape) × (s.Idx → EReal)))
      concatenates_S800000x128_S800000x128_S800000x16_S800000x272_d1
    (ix2 e (⟨256 + j.val, by have := j.isLt; omega⟩ : Fin 272)) 2 (by show (2 : ℕ) < 3; decide) S800000x16 x2 rfl rfl 256 rfl
    (ix2 e j) (fun b hb => ?_) ?_
  · match b with
    | ⟨0, _⟩ => rfl
    | ⟨1, _⟩ => exact absurd rfl hb
  · rfl

/-- The reference's hidden layer, entry by entry, is the network's: the one sum over the 272 joined features is
    split into the node features' sum and the attributes' sum. -/
theorem hidden_eq (x0 : FVec Ideal S50000x128 .f32) (x1 : IVec S2x800000 32) (x2 : FVec Ideal S800000x16 .f32)
    (x3 : FVec Ideal S256x272 .f32) (x4 : FVec Ideal S256 .f32) (e : Fin 800000) (h : Fin 256) :
    val_main_v24 (F := Ideal) x0 x1 x2 x3 x4 (ix2 e h) = hid x0 x1 x2 x3 x4 e h := by
  have hl : ∀ k : Fin 272, lidx_main_v20 (ix2 e h) k = ix2 e k := fun k => funext fun a => Fin.ext (by
    match a with
    | ⟨0, _⟩ => rfl
    | ⟨1, _⟩ => rfl)
  have hr : ∀ k : Fin 272, ridx_main_v20 (ix2 e h) k = ix2 k h := fun k => funext fun a => Fin.ext (by
    match a with
    | ⟨0, _⟩ => rfl
    | ⟨1, _⟩ => rfl)
  have hw : ∀ k : Fin 272, val_main_v19 (F := Ideal) x3 (ix2 k h) = x3 (ix2 h k) := fun k =>
    (val_main_v19_apply (F := Ideal) x3 (ix2 k h)).trans (congrArg x3 (funext fun a => Fin.ext (by
      match a with
      | ⟨0, _⟩ => rfl
      | ⟨1, _⟩ => rfl)))
  have hb : idx_main_v21 (idx_main_v22 (ix2 e h)) = ix1 h := funext fun a => Fin.ext (by
    match a with
    | ⟨0, _⟩ => rfl)
  rw [val_main_v24_apply, val_main_v23_apply, val_main_v20_apply, val_main_v22_apply, val_main_v21_apply,
    val_main_call0_v0_apply, val_main_call0_cst_apply, hb]
  simp only [hl, hr, hw]
  rw [sum_split (fun k : Fin 272 => val_main_v18 (F := Ideal) x0 x1 x2 (ix2 e k) * x3 (ix2 h k))]
  simp only [joined_node, joined_attr]
  rfl

/-- THE REFERENCE'S RESULT is the network's result of the arguments. -/
theorem result_eq (x0 : FVec Ideal S50000x128 .f32) (x1 : IVec S2x800000 32) (x2 : FVec Ideal S800000x16 .f32)
    (x3 : FVec Ideal S256x272 .f32) (x4 : FVec Ideal S256 .f32)
    (x5 : FVec Ideal S128x256 .f32) (x6 : FVec Ideal S128 .f32) :
    val_main_v29 (F := Ideal) x0 x1 x2 x3 x4 x5 x6 = G x0 x1 x2 x3 x4 x5 x6 := by
  funext i
  obtain ⟨e, o, rfl⟩ : ∃ (e : Fin 800000) (o : Fin 128), i = (ix2 e o : S800000x128.Idx) :=
    ⟨i 0, i 1, eq_ix2 (n0 := 800000) (n1 := 128) i⟩
  have hl : ∀ k : Fin 256, lidx_main_v26 (ix2 e o) k = ix2 e k := fun k => funext fun a => Fin.ext (by
    match a with
    | ⟨0, _⟩ => rfl
    | ⟨1, _⟩ => rfl)
  have hr : ∀ k : Fin 256, ridx_main_v26 (ix2 e o) k = ix2 k o := fun k => funext fun a => Fin.ext (by
    match a with
    | ⟨0, _⟩ => rfl
    | ⟨1, _⟩ => rfl)
  have hw : ∀ k : Fin 256, val_main_v25 (F := Ideal) x5 (ix2 k o) = x5 (ix2 o k) := fun k =>
    (val_main_v25_apply (F := Ideal) x5 (ix2 k o)).trans (congrArg x5 (funext fun a => Fin.ext (by
      match a with
      | ⟨0, _⟩ => rfl
      | ⟨1, _⟩ => rfl)))
  have hb : idx_main_v27 (idx_main_v28 (ix2 e o)) = ix1 o := funext fun a => Fin.ext (by
    match a with
    | ⟨0, _⟩ => rfl)
  rw [G_apply, val_main_v29_apply, val_main_v26_apply, val_main_v28_apply, val_main_v27_apply, hb]
  simp only [hl, hr, hw, hidden_eq]
  rfl

end Cert.EdgeMlp.Ref

end
-- ==== Proof.lean ====
/-
  An edge network over a graph: for each of 800000 edges, the features of its two end nodes (gathered from a
  table of 50000 nodes, 128 features each) and the edge's own 16 attributes are sent through two layers,

    out(e, o) = (∑ h, max ((∑ k, feat(e, k) · W1(h, k)) + b1(h), 0) · W2(o, h)) + b2(o).

  The kernel gathers both end nodes' rows in one gather (after narrowing the table's float format, which is the
  identity at the exact values), lays them side by side as 256 numbers per edge, and in blocks of 6400 edges
  computes the first layer as a product over those 256 numbers plus a product over the 16 attributes, against
  the corresponding columns of `W1`. The reference gathers each end separately, joins the three pieces into 272
  numbers per edge and takes one product against all of `W1`. At the exact values both are the one function
  `Cert.EdgeMlp.G` of the arguments: the sum over 272 terms is the sum of its first 256 and its last 16 terms, by
  the commutative-monoid laws of addition on the extended reals alone, so the inputs' finiteness is never used.

  The kernel's side: `Cert.EdgeMlp.Blocks.run` (the stored value read at an entry, the prepared arrays read at
  an index, and the 125 blocks covering the result). The reference's side: `Cert.EdgeMlp.Ref.result_eq`.
-/
import proofs.«125666_j51196010168704_2_alg».proof.Defs
import proofs.«125666_j51196010168704_2_alg».proof.Proof.Gen.Kernel
import proofs.«125666_j51196010168704_2_alg».proof.Proof.Gen.Kernel.Skeleton
import proofs.«125666_j51196010168704_2_alg».proof.Proof.Gen.Kernel.Launch
import proofs.«125666_j51196010168704_2_alg».proof.Proof.Gen.Kernel.Points
import proofs.«125666_j51196010168704_2_alg».proof.Proof.Gen.Kernel.Frame
import proofs.«125666_j51196010168704_2_alg».proof.Proof.Gen.KernelIdeal
import proofs.«125666_j51196010168704_2_alg».proof.Proof.Gen.KernelIdeal.Skeleton
import proofs.«125666_j51196010168704_2_alg».proof.Proof.Gen.KernelIdeal.Launch
import proofs.«125666_j51196010168704_2_alg».proof.Proof.Gen.KernelIdeal.Points
import proofs.«125666_j51196010168704_2_alg».proof.Proof.Gen.KernelIdeal.Frame
import proofs.«125666_j51196010168704_2_alg».proof.Proof.Gen.ReferenceIdeal
import proofs.«125666_j51196010168704_2_alg».proof.Proof.Gen.Pre_finite_inputs
import proofs.«125666_j51196010168704_2_alg».proof.Proof.Gen.KernelIdeal.Value
import proofs.«125666_j51196010168704_2_alg».proof.Proof.Gen.ReferenceIdeal.Run
import proofs.«125666_j51196010168704_2_alg».proof.Proof.Gen.ReferenceIdeal.Read
import proofs.«125666_j51196010168704_2_alg».proof.Proof.Blocks
import proofs.«125666_j51196010168704_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel at the exact values. -/
theorem frame_ki : Cert.frame_KernelIdeal := fun m ρ _ => Cert.KernelIdeal.Gen.frame m ρ

/-- The reference is a sequence of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the printed kernel and its reading at the exact values. -/
theorem preserves : Cert.preserves_Kernel_KernelIdeal := trivial

/-- From memories that agree on the arguments both programs end with the network's result of those arguments. -/
theorem algebraic : Cert.algebraic_KernelIdeal_ReferenceIdeal := by
  intro m ρ m' ρ' _ hagree
  refine ⟨fun c => Cert.EdgeMlp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.EdgeMlp.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v29_eq, Cert.EdgeMlp.Ref.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
